-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S128 : Shape := ⟨1, ![128]⟩
abbrev S256x128 : Shape := ⟨2, ![256, 128]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S64x4096 .f32) (main_arg1 : FVec F S128 .f32) (main_arg2 : FVec F S256x128 .f32) (main_arg3 : FVec F S256x128 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S64x4096 : Shape := ⟨2, ![64, 4096]⟩
abbrev S128 : Shape := ⟨1, ![128]⟩
abbrev S256x128 : Shape := ⟨2, ![256, 128]⟩
abbrev S262144 : Shape := ⟨1, ![262144]⟩
abbrev S128x256 : Shape := ⟨2, ![128, 256]⟩
abbrev S256x256 : Shape := ⟨2, ![256, 256]⟩
abbrev S262144x256 : Shape := ⟨2, ![262144, 256]⟩
abbrev S8192 : Shape := ⟨1, ![8192]⟩
abbrev S8192x256 : Shape := ⟨2, ![8192, 256]⟩
abbrev S8192x1 : Shape := ⟨2, ![8192, 1]⟩
abbrev S1x128 : Shape := ⟨2, ![1, 128]⟩
abbrev S8192x128 : Shape := ⟨2, ![8192, 128]⟩
abbrev S64x4096x256 : Shape := ⟨3, ![64, 4096, 256]⟩

abbrev nBuf : Space → Nat
  | .hbm => 11
  | .vmem => 6
  | .smem => 0
  | _ => 0

abbrev bufTy : (tb : Table) → Fin (tcTables nBuf tb) → BufTy
  | .hbm, ⟨0, _⟩ => ⟨S64x4096, .f32⟩
  | .hbm, ⟨1, _⟩ => ⟨S128, .f32⟩
  | .hbm, ⟨2, _⟩ => ⟨S256x128, .f32⟩
  | .hbm, ⟨3, _⟩ => ⟨S256x128, .f32⟩
  | .hbm, ⟨4, _⟩ => ⟨S262144, .f32⟩
  | .hbm, ⟨5, _⟩ => ⟨S128x256, .f32⟩
  | .hbm, ⟨6, _⟩ => ⟨S128x256, .f32⟩
  | .hbm, ⟨7, _⟩ => ⟨S256x256, .f32⟩
  | .hbm, ⟨8, _⟩ => ⟨S256x256, .bf16⟩
  | .hbm, ⟨9, _⟩ => ⟨S262144x256, .f32⟩
  | .hbm, ⟨10, _⟩ => ⟨S64x4096x256, .f32⟩
  | .local _ .vmem, ⟨0, _⟩ => ⟨S8192, .f32⟩
  | .local _ .vmem, ⟨1, _⟩ => ⟨S8192, .f32⟩
  | .local _ .vmem, ⟨2, _⟩ => ⟨S128, .f32⟩
  | .local _ .vmem, ⟨3, _⟩ => ⟨S256x256, .bf16⟩
  | .local _ .vmem, ⟨4, _⟩ => ⟨S8192x256, .f32⟩
  | .local _ .vmem, ⟨5, _⟩ => ⟨S8192x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x4096_S262144 : S64x4096.ShapeCasts S262144
  transposes_S256x128_S128x256_1_0 : S256x128.Transposes [1, 0] S128x256
  concatenates_S128x256_S128x256_S256x256_d0 : Shape.Concatenates [S128x256, S128x256] S256x256 0
  bitsLt_bf16_f32 : FTy.bits .bf16 < FTy.bits .f32
  inb_S8192_S8192_0 : ∀ a, (![0] : Fin 1 → Nat) a + S8192.size a ≤ S8192.size a
  h_S8192 : 0 < S8192.numel
  shapeCasts_S8192_S8192 : S8192.ShapeCasts S8192
  inb_S128_S128_0 : ∀ a, (![0] : Fin 1 → Nat) a + S128.size a ≤ S128.size a
  h_S128 : 0 < S128.numel
  shapeCasts_S8192_S8192x1 : S8192.ShapeCasts S8192x1
  shapeCasts_S128_S1x128 : S128.ShapeCasts S1x128
  broadcasts_S8192x1_S8192x128 : S8192x1.Broadcasts S8192x128
  broadcasts_S1x128_S8192x128 : S1x128.Broadcasts S8192x128
  concatenates_S8192x128_S8192x128_S8192x256_d1 : Shape.Concatenates [S8192x128, S8192x128] S8192x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S262144x256_S64x4096x256 : S262144x256.ShapeCasts S64x4096x256
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S262144.size a
  hwx0_0 : ∀ i : grid0.Coords, EltTy.bits .f32 = 32 ∨ (Rect.block (s := S262144) S8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S262144x256.size a
  hwx0_3 : ∀ i : grid0.Coords, EltTy.bits .f32 = 32 ∨ (Rect.block (s := S262144x256) S8192x256.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v0) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096 : Shape := ⟨2, ![64, 4096]⟩
abbrev S128 : Shape := ⟨1, ![128]⟩
abbrev S256x128 : Shape := ⟨2, ![256, 128]⟩
abbrev S64x4096x1 : Shape := ⟨3, ![64, 4096, 1]⟩
abbrev S_ : Shape := ⟨0, ![]⟩
abbrev S1x1x128 : Shape := ⟨3, ![1, 1, 128]⟩
abbrev S64x4096x128 : Shape := ⟨3, ![64, 4096, 128]⟩
abbrev S64x4096x256 : Shape := ⟨3, ![64, 4096, 256]⟩

abbrev nBuf : Space → Nat
  | .hbm => 17
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S128, .f32⟩
  | .hbm, ⟨2, _⟩ => ⟨S256x128, .f32⟩
  | .hbm, ⟨3, _⟩ => ⟨S256x128, .f32⟩
  | .hbm, ⟨4, _⟩ => ⟨S64x4096x1, .f32⟩
  | .hbm, ⟨5, _⟩ => ⟨S_, .f32⟩
  | .hbm, ⟨6, _⟩ => ⟨S64x4096x1, .f32⟩
  | .hbm, ⟨7, _⟩ => ⟨S64x4096x1, .f32⟩
  | .hbm, ⟨8, _⟩ => ⟨S1x1x128, .f32⟩
  | .hbm, ⟨9, _⟩ => ⟨S64x4096x128, .f32⟩
  | .hbm, ⟨10, _⟩ => ⟨S64x4096x128, .f32⟩
  | .hbm, ⟨11, _⟩ => ⟨S64x4096x128, .f32⟩
  | .hbm, ⟨12, _⟩ => ⟨S64x4096x128, .f32⟩
  | .hbm, ⟨13, _⟩ => ⟨S64x4096x256, .f32⟩
  | .hbm, ⟨14, _⟩ => ⟨S64x4096x128, .f32⟩
  | .hbm, ⟨15, _⟩ => ⟨S64x4096x256, .f32⟩
  | .hbm, ⟨16, _⟩ => ⟨S64x4096x256, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S128_S1x1x128_2 : S128.BroadcastsInDim S1x1x128 (![2] : Fin 1 → Fin S1x1x128.rank)
  bcast_S64x4096x1_S64x4096x128_0_1_2 : S64x4096x1.BroadcastsInDim S64x4096x128 (![0, 1, 2] : Fin 3 → Fin S64x4096x128.rank)
  bcast_S1x1x128_S64x4096x128_0_1_2 : S1x1x128.BroadcastsInDim S64x4096x128 (![0, 1, 2] : Fin 3 → Fin S64x4096x128.rank)
  dot_S64x4096x128_S256x128_S64x4096x256_2_1_01_0_n_n_wf : DotDims.WF S64x4096x128 S256x128 S64x4096x256 [2] [1] [0, 1] [0] [] []

variable [Facts₀]

def dot_S64x4096x128_S256x128_S64x4096x256_2_1_01_0_n_n : DotDims S64x4096x128 S256x128 S64x4096x256 where
  lhsContracting := [2]
  rhsContracting := [1]
  lhsNonContracting := [0, 1]
  rhsNonContracting := [0]
  lhsBatch := []
  rhsBatch := []
  wf := dot_S64x4096x128_S256x128_S64x4096x256_2_1_01_0_n_n_wf

class Facts : Prop extends Facts₀ where

variable [Facts]
-- ==== Proof.Spec.lean ====
/-
  The function both programs compute, stated once over the extended reals and over literal shapes.

  The inputs are sample times `t[b, l]` (64 × 4096), frequencies `f[k]` (128) and two amplitude tables
  `aS[c, k]`, `aC[c, k]` (256 × 128). The phase of sample `(b, l)` at frequency `k` is `(ω · t[b, l]) · f[k]`,
  `ω` the f32 word nearest 2π, multiplied in this order. The result is the truncated Fourier series

      out[b, l, c] = Σ_k sin(phase) · aS[c, k]  +  Σ_k cos(phase) · aC[c, k].

  Also here: the same function read by the flat row `4096 · b + l` (the kernel works on the flattened sample
  axis), and the one law that joins the two programs: a sum over 256 terms is the sum of its two halves — the
  kernel contracts ONE axis of length 256 (sines then cosines), the reference two of length 128. On the
  extended reals addition is commutative and associative (with `⊥ + ⊤ = ⊥`), so the law needs no finiteness.
-/
import Idealize.ShloMosaic.PureOps.Ideal
import Idealize.ShloMosaic.Lib.ValueIdx

noncomputable section

namespace Cert.FourierSeries

open Idealize.ShloMosaic Idealize.ShloMosaic.ValueIdx

/-- The shapes of the four inputs and of the result, and of the result with the sample axes flattened. -/
abbrev Times : Shape := ⟨2, ![64, 4096]⟩
abbrev Freqs : Shape := ⟨1, ![128]⟩
abbrev Amps : Shape := ⟨2, ![256, 128]⟩
abbrev Out : Shape := ⟨3, ![64, 4096, 256]⟩
abbrev OutFlat : Shape := ⟨2, ![262144, 256]⟩

/-- `ω`: the f32 word both programs carry for 2π, at its exact binary value. -/
def omega : EReal := Ideal.ofBits .f32 0x40C90FDB#32

/-- The phase of sample `(b, l)` at frequency `k`: `(ω · t[b, l]) · f[k]`. -/
def phase (t : Times.Idx → EReal) (f : Freqs.Idx → EReal) (b : Fin 64) (l : Fin 4096) (k : Fin 128) : EReal :=
  omega * t (ix2 b l) * f (ix1 k)

/-- The series at sample `(b, l)` and channel `c`: the sine half plus the cosine half. -/
def series (t : Times.Idx → EReal) (f : Freqs.Idx → EReal) (aS aC : Amps.Idx → EReal)
    (b : Fin 64) (l : Fin 4096) (c : Fin 256) : EReal :=
  (∑ k : Fin 128, Ideal.sin (phase t f b l k) * aS (ix2 c k))
    + ∑ k : Fin 128, Ideal.cos (phase t f b l k) * aC (ix2 c k)

/-- The result array: the series at every `(b, l, c)`. -/
def result (t : Times.Idx → EReal) (f : Freqs.Idx → EReal) (aS aC : Amps.Idx → EReal) : Out.Idx → EReal :=
  fun i => series t f aS aC (i 0) (i 1) (i 2)

/-- A flat row `r < 262144` is sample `(r / 4096, r % 4096)`. -/
theorem row_div_lt {r : Nat} (h : r < 262144) : r / 4096 < 64 := by omega
theorem row_mod_lt (r : Nat) : r % 4096 < 4096 := Nat.mod_lt _ (by decide)

/-- The same array with the two sample axes flattened into one of length 64 · 4096. -/
def resultFlat (t : Times.Idx → EReal) (f : Freqs.Idx → EReal) (aS aC : Amps.Idx → EReal) : OutFlat.Idx → EReal :=
  fun i => series t f aS aC ⟨(i 0).val / 4096, row_div_lt (i 0).isLt⟩ ⟨(i 0).val % 4096, row_mod_lt _⟩ (i 1)

/-- The flattened array at row `4096 · b + l`, column `c`, is the series at `(b, l, c)`. -/
theorem resultFlat_apply (t : Times.Idx → EReal) (f : Freqs.Idx → EReal) (aS aC : Amps.Idx → EReal) (i : OutFlat.Idx)
    (b : Fin 64) (l : Fin 4096) (c : Fin 256) (hr : (i 0).val = 4096 * b.val + l.val) (hc : (i 1).val = c.val) :
    resultFlat t f aS aC i = series t f aS aC b l c := by
  have hl := l.isLt
  unfold resultFlat
  have e0 : (⟨(i 0).val / 4096, row_div_lt (i 0).isLt⟩ : Fin 64) = b := Fin.ext (by show (i 0).val / 4096 = b.val; omega)
  have e1 : (⟨(i 0).val % 4096, row_mod_lt _⟩ : Fin 4096) = l := Fin.ext (by show (i 0).val % 4096 = l.val; omega)
  have e2 : (i 1 : Fin 256) = c := Fin.ext hc
  rw [e0, e1, e2]

/-- A sum over 256 terms is the sum over the first 128 plus the sum over the last 128. -/
theorem sum_halves {M : Type*} [AddCommMonoid M] (h : Fin 256 → M) :
    ∑ k : Fin 256, h k
      = (∑ k : Fin 128, h ⟨k.val, Nat.lt_of_lt_of_le k.isLt (by decide)⟩)
        + ∑ k : Fin 128, h ⟨128 + k.val, Nat.add_lt_add_left k.isLt 128⟩ :=
  Fin.sum_univ_add (a := 128) (b := 128) h

end Cert.FourierSeries

end
-- ==== Proof.RefSeries.lean ====
/-
  The reference computes the series.

  Its last stage adds two contractions over the 128 frequencies — sines against `aS`, cosines against `aC` — of
  the phase `(ω · t[b, l]) · f[k]`, which it builds by broadcasting `t` along a new last axis and `f` along the two
  sample axes. Read at an index `(b, l, c)`, every broadcast lands on `t[b, l]` or `f[k]` and each contraction
  pairs it with row `c` of its amplitude table: term by term the series of the specification.
-/
import proofs.«166852_j72069551227165_2_alg».proof.Proof.Gen.ReferenceIdeal.Read
import proofs.«166852_j72069551227165_2_alg».proof.Proof.Spec

noncomputable section

namespace Cert.FourierSeries.Reference

open Cert.ReferenceIdeal Cert.ReferenceIdeal.Read Idealize.ShloMosaic Idealize.ShloMosaic.ValueIdx
open Cert.FourierSeries

/-- Where the broadcasts and the contraction read the sample time: at `(b, l)`, whatever `c` and `k`. -/
theorem time_index (b : Fin 64) (l : Fin 4096) (c : Fin 256) (k : Fin 128) :
    idx_main_v0 (idx_main_v4 (lidx_main_v8 (ix3 b l c) k)) = ix2 b l :=
  funext fun a => Fin.ext (by match a with | ⟨0, _⟩ => rfl | ⟨1, _⟩ => rfl)

/-- Where they read the frequency: at `k`. -/
theorem freq_index (b : Fin 64) (l : Fin 4096) (c : Fin 256) (k : Fin 128) :
    idx_main_v3 (idx_main_v5 (lidx_main_v8 (ix3 b l c) k)) = ix1 k :=
  funext fun a => Fin.ext (by match a with | ⟨0, _⟩ => rfl)

/-- Where the contraction reads an amplitude table: at `(c, k)`. -/
theorem amp_index (b : Fin 64) (l : Fin 4096) (c : Fin 256) (k : Fin 128) :
    ridx_main_v8 (ix3 b l c) k = ix2 c k :=
  funext fun a => Fin.ext (by match a with | ⟨0, _⟩ => rfl | ⟨1, _⟩ => rfl)

/-- The phase stage at `(b, l, k)` is the specification's phase. -/
theorem phase_eq (x0 : FVec Ideal S64x4096 .f32) (x1 : FVec Ideal S128 .f32) (b : Fin 64) (l : Fin 4096) (c : Fin 256) (k : Fin 128) :
    val_main_v6 (F := Ideal) x0 x1 (lidx_main_v8 (ix3 b l c) k) = phase x0 x1 b l k := by
  rw [val_main_v6_apply, val_main_v4_apply, val_main_v5_apply, val_main_v2_apply, val_main_v3_apply, val_main_v1_apply,
    val_main_cst_apply, val_main_v0_apply, time_index, freq_index]
  rfl

/-- The reference's result stage is the series, index by index. -/
theorem stage_eq (x0 : FVec Ideal S64x4096 .f32) (x1 : FVec Ideal S128 .f32) (x2 x3 : FVec Ideal S256x128 .f32) :
    val_main_v11 (F := Ideal) x0 x1 x2 x3 = result x0 x1 x2 x3 := by
  funext i
  obtain ⟨b, l, c, rfl⟩ : ∃ (b : Fin 64) (l : Fin 4096) (c : Fin 256), i = ix3 b l c := ⟨i 0, i 1, i 2, eq_ix3 i⟩
  rw [val_main_v11_apply, val_main_v8_apply, val_main_v10_apply]
  show (∑ k : Fin 128, _) + (∑ k : Fin 128, _) = series x0 x1 x2 x3 b l c
  unfold series
  refine congrArg₂ (· + ·) (Finset.sum_congr rfl fun k _ => ?_) (Finset.sum_congr rfl fun k _ => ?_)
  · rw [val_main_v7_apply, phase_eq, amp_index]; rfl
  · rw [val_main_v9_apply, show lidx_main_v10 (ix3 b l c) k = lidx_main_v8 (ix3 b l c) k from rfl, phase_eq,
      show ridx_main_v10 (ix3 b l c) k = ridx_main_v8 (ix3 b l c) k from rfl, amp_index]; rfl

end Cert.FourierSeries.Reference

end
-- ==== Proof.Payload.lean ====
/-
  What the kernel body stores, read at an index.

  At a grid point the body holds 8192 sample times `x0`, the 128 frequencies `x1` and a 256 × 256 table `x2`.
  It forms the 8192 × 128 phases `(ω · x0[r]) · x1[k]`, lays their sines beside their cosines as one 8192 × 256
  matrix, and contracts that with the table into a zero accumulator. So at row `r` and column `c`

      stored[r, c] = Σ_{k < 256} sc[r, k] · x2[k, c],   sc[r, k] = sin(phase r k) for k < 128, cos(phase r (k − 128)) after,

  and splitting the 256 terms into their two halves gives a sine sum against rows 0 … 127 of the table plus a cosine
  sum against rows 128 … 255. Rounding the sines and cosines to a narrower format is the identity on extended reals.
-/
import proofs.«166852_j72069551227165_2_alg».proof.Proof.Gen.KernelIdeal.Skeleton
import proofs.«166852_j72069551227165_2_alg».proof.Proof.Spec
import Idealize.ShloMosaic.Lib.Pipeline.Value
import Idealize.ShloMosaic.Lib.ValueIdx
import Idealize.ShloMosaic.PureOps.Ideal.Laws

noncomputable section

namespace Cert.FourierSeries.Body

open Cert.KernelIdeal Cert.KernelIdeal.Gen Idealize.ShloMosaic Idealize.ShloMosaic.ValueIdx
open Cert.FourierSeries

/-- The block's phases, as the body builds them: `ω` times the times as a column, broadcast along the row, times the
    frequencies as a row, broadcast along the column. -/
def blockPhase (x0 : Vec Ideal S8192 .f32) (x1 : Vec Ideal S128 .f32) : FVec Ideal S8192x128 .f32 :=
  mulf
    (broadcastTo S8192x128
      (mulf (broadcast S8192x1 (Scalar.ofBits (F := Ideal) .f32 0x40C90FDB#32))
        (shapeCast S8192x1 (shapeCast S8192 x0 shapeCasts_S8192_S8192) shapeCasts_S8192_S8192x1))
      broadcasts_S8192x1_S8192x128)
    (broadcastTo S8192x128 (shapeCast S1x128 x1 shapeCasts_S128_S1x128) broadcasts_S1x128_S8192x128)

/-- The sines of the phases beside their cosines: the left operand of the contraction. -/
def sinCos (x0 : Vec Ideal S8192 .f32) (x1 : Vec Ideal S128 .f32) : FVec Ideal S8192x256 .bf16 :=
  concatenate S8192x256 1
    [⟨S8192x128, truncf .bf16 (sin (blockPhase x0 x1)) bitsLt_bf16_f32⟩,
     ⟨S8192x128, truncf .bf16 (cos (blockPhase x0 x1)) bitsLt_bf16_f32⟩]
    concatenates_S8192x128_S8192x128_S8192x256_d1

/-- The stored value is the contraction of `sinCos` with the table, into zero. -/
theorem payload_eq (x0 : Vec Ideal S8192 .f32) (x1 : Vec Ideal S128 .f32) (x2 : Vec Ideal S256x256 .bf16) :
    k0_pay1 (F := Ideal) x0 x1 x2
      = matmul dot_S8192x256_S256x256_S8192x256_1_0_0_1_n_n none (sinCos x0 x1) (shapeCast S256x256 x2 shapeCasts_S256x256_S256x256 : FVec Ideal S256x256 .bf16)
          (constant (F := Ideal) S8192x256 .f32 0x00000000#32) := rfl

/-! ## The phases at an index -/

/-- A length-8192 vector viewed as a column reads row `r` at `(r, 0)`. -/
theorem column_apply (v : FVec Ideal S8192 .f32) (r : Fin 8192) :
    shapeCast S8192x1 v shapeCasts_S8192_S8192x1 (ix2 r (0 : Fin 1)) = v (ix1 r) :=
  shapeCast_apply v shapeCasts_S8192_S8192x1 (ix2 r (0 : Fin 1)) (ix1 r) (by
    rw [Shape.rowMajor_val_one, Shape.rowMajor_val_two]
    show r.val = r.val * 1 + 0
    omega)

/-- A length-128 vector viewed as a row reads entry `k` at `(0, k)`. -/
theorem row_apply (v : FVec Ideal S128 .f32) (k : Fin 128) :
    shapeCast S1x128 v shapeCasts_S128_S1x128 (ix2 (0 : Fin 1) k) = v (ix1 k) :=
  shapeCast_apply v shapeCasts_S128_S1x128 (ix2 (0 : Fin 1) k) (ix1 k) (by
    rw [Shape.rowMajor_val_one, Shape.rowMajor_val_two]
    show k.val = 0 * 128 + k.val
    omega)

/-- A column broadcast along the row reads `(r, k)` at `(r, 0)`. -/
theorem column_bcast_apply (v : FVec Ideal S8192x1 .f32) (r : Fin 8192) (k : Fin 128) :
    broadcastTo S8192x128 v broadcasts_S8192x1_S8192x128 (ix2 r k) = v (ix2 r (0 : Fin 1)) :=
  broadcastTo_apply v broadcasts_S8192x1_S8192x128 (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-- A row broadcast along the column reads `(r, k)` at `(0, k)`. -/
theorem row_bcast_apply (v : FVec Ideal S1x128 .f32) (r : Fin 8192) (k : Fin 128) :
    broadcastTo S8192x128 v broadcasts_S1x128_S8192x128 (ix2 r k) = v (ix2 (0 : Fin 1) k) :=
  broadcastTo_apply v broadcasts_S1x128_S8192x128 (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The phase at row `r`, frequency `k`: `(ω · x0[r]) · x1[k]`. -/
theorem blockPhase_apply (x0 : Vec Ideal S8192 .f32) (x1 : Vec Ideal S128 .f32) (r : Fin 8192) (k : Fin 128) :
    blockPhase x0 x1 (ix2 r k) = omega * x0 (ix1 r) * x1 (ix1 k) := by
  unfold blockPhase
  rw [mulf_apply, column_bcast_apply, row_bcast_apply, mulf_apply, column_apply, row_apply, shapeCast_self]
  rfl

/-! ## The sines beside the cosines at an index -/

/-- Columns 0 … 127 hold the sines. -/
theorem sinCos_left (x0 : Vec Ideal S8192 .f32) (x1 : Vec Ideal S128 .f32) (r : Fin 8192) (k : Fin 128) :
    sinCos x0 x1 (ix2 r (⟨k.val, Nat.lt_of_lt_of_le k.isLt (by decide)⟩ : Fin 256)) = Ideal.sin (blockPhase x0 x1 (ix2 r k)) := by
  unfold sinCos
  exact concatenate_pair_apply_left (1 : Fin 2)
    (truncf .bf16 (sin (blockPhase x0 x1)) bitsLt_bf16_f32 : FVec Ideal S8192x128 .bf16)
    (truncf .bf16 (cos (blockPhase x0 x1)) bitsLt_bf16_f32 : FVec Ideal S8192x128 .bf16)
    concatenates_S8192x128_S8192x128_S8192x256_d1
    (ix2 r (⟨k.val, Nat.lt_of_lt_of_le k.isLt (by decide)⟩ : Fin 256)) rfl (ix2 r k)
    (fun b => match b with | ⟨0, _⟩ => rfl | ⟨1, _⟩ => rfl)

/-- Columns 128 … 255 hold the cosines. -/
theorem sinCos_right (x0 : Vec Ideal S8192 .f32) (x1 : Vec Ideal S128 .f32) (r : Fin 8192) (k : Fin 128) :
    sinCos x0 x1 (ix2 r (⟨128 + k.val, Nat.add_lt_add_left k.isLt 128⟩ : Fin 256)) = Ideal.cos (blockPhase x0 x1 (ix2 r k)) := by
  unfold sinCos
  exact concatenate_pair_apply_right (1 : Fin 2)
    (truncf .bf16 (sin (blockPhase x0 x1)) bitsLt_bf16_f32 : FVec Ideal S8192x128 .bf16)
    (truncf .bf16 (cos (blockPhase x0 x1)) bitsLt_bf16_f32 : FVec Ideal S8192x128 .bf16)
    concatenates_S8192x128_S8192x128_S8192x256_d1
    (ix2 r (⟨128 + k.val, Nat.add_lt_add_left k.isLt 128⟩ : Fin 256)) rfl rfl (ix2 r k)
    (fun b => match b with
      | ⟨0, _⟩ => fun _ => rfl
      | ⟨1, _⟩ => fun hne => absurd rfl hne)
    (by show k.val + 128 = 128 + k.val; omega)

/-! ## The contraction at an index -/

theorem lhs_row (j : S8192x256.Idx) (q : dot_S8192x256_S256x256_S8192x256_1_0_0_1_n_n.contr.Idx) : (dot_S8192x256_S256x256_S8192x256_1_0_0_1_n_n.lhsIdx j q 0).val = (j 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
theorem lhs_col (j : S8192x256.Idx) (q : dot_S8192x256_S256x256_S8192x256_1_0_0_1_n_n.contr.Idx) : (dot_S8192x256_S256x256_S8192x256_1_0_0_1_n_n.lhsIdx j q 1).val = (q ⟨0, by decide⟩).val :=
  dot_S8192x256_S256x256_S8192x256_1_0_0_1_n_n.lhsIdx_val_of_single rfl j q
theorem rhs_row (j : S8192x256.Idx) (q : dot_S8192x256_S256x256_S8192x256_1_0_0_1_n_n.contr.Idx) : (dot_S8192x256_S256x256_S8192x256_1_0_0_1_n_n.rhsIdx j q 0).val = (q ⟨0, by decide⟩).val :=
  dot_S8192x256_S256x256_S8192x256_1_0_0_1_n_n.rhsIdx_val_of_single rfl j q
theorem rhs_col (j : S8192x256.Idx) (q : dot_S8192x256_S256x256_S8192x256_1_0_0_1_n_n.contr.Idx) : (dot_S8192x256_S256x256_S8192x256_1_0_0_1_n_n.rhsIdx j q 1).val = (j 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- Into the zero accumulator, the contraction at `(r, c)` is the sum over the 256 inner positions of row `r` of the
    left operand against column `c` of the right. -/
theorem contraction_apply (lhs : FVec Ideal S8192x256 .bf16) (rhs : FVec Ideal S256x256 .bf16) (r : Fin 8192) (c : Fin 256) :
    matmul dot_S8192x256_S256x256_S8192x256_1_0_0_1_n_n none lhs rhs (constant (F := Ideal) S8192x256 .f32 0x00000000#32) (ix2 r c)
      = ∑ k : Fin 256, lhs (ix2 r k) * rhs (ix2 k c) := by
  simp only [matmul]
  rw [Ideal.matmul_constant_zero_apply, ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 r c) ((contrEquiv1 dot_S8192x256_S256x256_S8192x256_1_0_0_1_n_n 256 rfl rfl).symm k) = ix2 r k := funext fun a => Fin.ext (by
    match a with
    | ⟨0, _⟩ => exact lhs_row _ _
    | ⟨1, _⟩ => exact (lhs_col _ _).trans hk)
  have er : dot_S8192x256_S256x256_S8192x256_1_0_0_1_n_n.rhsIdx (ix2 r c) ((contrEquiv1 dot_S8192x256_S256x256_S8192x256_1_0_0_1_n_n 256 rfl rfl).symm k) = ix2 k c := funext fun a => Fin.ext (by
    match a with
    | ⟨0, _⟩ => exact (rhs_row _ _).trans hk
    | ⟨1, _⟩ => exact rhs_col _ _)
  rw [el, er]

/-! ## The stored value at an index -/

/-- At row `r`, column `c`: the sines of the row's phases against rows 0 … 127 of the table, plus the cosines against
    rows 128 … 255. -/
theorem payload_apply (x0 : Vec Ideal S8192 .f32) (x1 : Vec Ideal S128 .f32) (x2 : Vec Ideal S256x256 .bf16) (r : Fin 8192) (c : Fin 256) :
    k0_pay1 (F := Ideal) x0 x1 x2 (ix2 r c)
      = (∑ k : Fin 128, Ideal.sin (omega * x0 (ix1 r) * x1 (ix1 k)) * x2 (ix2 (⟨k.val, Nat.lt_of_lt_of_le k.isLt (by decide)⟩ : Fin 256) c))
        + ∑ k : Fin 128, Ideal.cos (omega * x0 (ix1 r) * x1 (ix1 k)) * x2 (ix2 (⟨128 + k.val, Nat.add_lt_add_left k.isLt 128⟩ : Fin 256) c) := by
  rw [payload_eq, contraction_apply, sum_halves]
  refine congrArg₂ (· + ·) (Finset.sum_congr rfl fun k _ => ?_) (Finset.sum_congr rfl fun k _ => ?_)
  · rw [sinCos_left, blockPhase_apply, shapeCast_self]
  · rw [sinCos_right, blockPhase_apply, shapeCast_self]

/-- So when the row's time is `t[b, l]`, the frequencies are `f`, and column `c` of the table holds row `c` of `aS` over
    row `c` of `aC`, the stored value at `(r, c)` is the series at `(b, l, c)`. -/
theorem point_value (x0 : Vec Ideal S8192 .f32) (x1 : Vec Ideal S128 .f32) (x2 : Vec Ideal S256x256 .bf16)
    (t : Times.Idx → EReal) (f : Freqs.Idx → EReal) (aS aC : Amps.Idx → EReal)
    (r : Fin 8192) (c : Fin 256) (b : Fin 64) (l : Fin 4096)
    (h0 : x0 (ix1 r) = t (ix2 b l)) (h1 : ∀ k : Fin 128, x1 (ix1 k) = f (ix1 k))
    (h2 : ∀ k : Fin 128, x2 (ix2 (⟨k.val, Nat.lt_of_lt_of_le k.isLt (by decide)⟩ : Fin 256) c) = aS (ix2 c k))
    (h3 : ∀ k : Fin 128, x2 (ix2 (⟨128 + k.val, Nat.add_lt_add_left k.isLt 128⟩ : Fin 256) c) = aC (ix2 c k)) :
    k0_pay1 (F := Ideal) x0 x1 x2 (ix2 r c) = series t f aS aC b l c := by
  rw [payload_apply]
  unfold series phase
  refine congrArg₂ (· + ·) (Finset.sum_congr rfl fun k _ => ?_) (Finset.sum_congr rfl fun k _ => ?_)
  · rw [h0, h1, h2]
  · rw [h0, h1, h3]

end Cert.FourierSeries.Body

end
-- ==== Proof.Entry.lean ====
/-
  What the region finds in its operands.

  Before the region the program flattens the 64 × 4096 sample times into one axis (row `4096 · b + l` holds
  `t[b, l]`), and builds the 256 × 256 table the body contracts with: the transpose of `aS` (128 × 256) stacked on
  the transpose of `aC`, so that row `k < 128` of the table at column `c` is `aS[c, k]` and row `128 + k` is
  `aC[c, k]`; rounding the table to a narrower format is the identity on extended reals. The frequencies are passed
  as they are.
-/
import proofs.«166852_j72069551227165_2_alg».proof.Proof.Gen.KernelIdeal.Frame
import proofs.«166852_j72069551227165_2_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.FourierSeries.Entry

open Cert.KernelIdeal Cert.KernelIdeal.Gen Idealize.ShloMosaic Idealize.ShloMosaic.TcCoe Idealize.SL.Sem
open Idealize.ShloMosaic.StableHlo Idealize.ShloMosaic.ValueIdx
open Cert.FourierSeries

/-! ## The two layout steps, over any arrays -/

/-- The flattened times read row `4096 · b + l` at `(b, l)`. -/
theorem flatten_apply (t : FVec Ideal S64x4096 .f32) (i : S262144.Idx) (b : Fin 64) (l : Fin 4096)
    (h : (i 0).val = 4096 * b.val + l.val) :
    shapeCast S262144 t shapeCasts_S64x4096_S262144 i = t (ix2 b l) :=
  shapeCast_apply t shapeCasts_S64x4096_S262144 i (ix2 b l) (by
    rw [Shape.rowMajor_val_two, Shape.rowMajor_val_one]
    show b.val * 4096 + l.val = (i 0).val
    omega)

/-- The table the body contracts with: `aS` transposed, stacked on `aC` transposed. -/
def stacked (aS aC : FVec Ideal S256x128 .f32) : FVec Ideal S256x256 .bf16 :=
  truncf .bf16
    (concatenate S256x256 0
      [⟨S128x256, transpose S128x256 [1, 0] aS transposes_S256x128_S128x256_1_0⟩,
       ⟨S128x256, transpose S128x256 [1, 0] aC transposes_S256x128_S128x256_1_0⟩]
      concatenates_S128x256_S128x256_S256x256_d0)
    bitsLt_bf16_f32

/-- A transposed amplitude table reads `(k, c)` at `(c, k)`. -/
theorem transposed_apply (a : FVec Ideal S256x128 .f32) (k : Fin 128) (c : Fin 256) :
    transpose S128x256 [1, 0] a transposes_S256x128_S128x256_1_0 (ix2 k c) = a (ix2 c k) :=
  transpose_apply [1, 0] a transposes_S256x128_S128x256_1_0 (ix2 k c) (ix2 c k)
    (fun b => match b with | ⟨0, _⟩ => rfl | ⟨1, _⟩ => rfl)

/-- Rows 0 … 127 of the table are `aS` transposed. -/
theorem stacked_upper (aS aC : FVec Ideal S256x128 .f32) (k : Fin 128) (c : Fin 256) :
    stacked aS aC (ix2 (⟨k.val, Nat.lt_of_lt_of_le k.isLt (by decide)⟩ : Fin 256) c) = aS (ix2 c k) := by
  unfold stacked
  refine Eq.trans ?_ (transposed_apply aS k c)
  exact concatenate_pair_apply_left (0 : Fin 2)
    (transpose S128x256 [1, 0] aS transposes_S256x128_S128x256_1_0)
    (transpose S128x256 [1, 0] aC transposes_S256x128_S128x256_1_0)
    concatenates_S128x256_S128x256_S256x256_d0
    (ix2 (⟨k.val, Nat.lt_of_lt_of_le k.isLt (by decide)⟩ : Fin 256) c) rfl (ix2 k c)
    (fun b => match b with | ⟨0, _⟩ => rfl | ⟨1, _⟩ => rfl)

/-- Rows 128 … 255 are `aC` transposed. -/
theorem stacked_lower (aS aC : FVec Ideal S256x128 .f32) (k : Fin 128) (c : Fin 256) :
    stacked aS aC (ix2 (⟨128 + k.val, Nat.add_lt_add_left k.isLt 128⟩ : Fin 256) c) = aC (ix2 c k) := by
  unfold stacked
  refine Eq.trans ?_ (transposed_apply aC k c)
  exact concatenate_pair_apply_right (0 : Fin 2)
    (transpose S128x256 [1, 0] aS transposes_S256x128_S128x256_1_0)
    (transpose S128x256 [1, 0] aC transposes_S256x128_S128x256_1_0)
    concatenates_S128x256_S128x256_S256x256_d0
    (ix2 (⟨128 + k.val, Nat.add_lt_add_left k.isLt 128⟩ : Fin 256) c) rfl rfl (ix2 k c)
    (fun b => match b with
      | ⟨0, _⟩ => fun hne => absurd rfl hne
      | ⟨1, _⟩ => fun _ => rfl)
    (by show k.val + 128 = 128 + k.val; omega)

/-! ## The operands as the region finds them -/

variable (m : (ℓ : Loc nD τ sig) → Buf (Elt Ideal) ℓ)

/-- The four argument arrays on core `c`, as launched. -/
abbrev times (c : Dev nD) : S64x4096.Idx → EReal := m ((c : Thread nD τ).loc main_arg0)
abbrev freqs (c : Dev nD) : S128.Idx → EReal := m ((c : Thread nD τ).loc main_arg1)
abbrev ampSin (c : Dev nD) : S256x128.Idx → EReal := m ((c : Thread nD τ).loc main_arg2)
abbrev ampCos (c : Dev nD) : S256x128.Idx → EReal := m ((c : Thread nD τ).loc main_arg3)

/-- The region's first operand is the flattened times. -/
theorem flatTimes_eq (c : Dev nD) :
    (V m c main_v0 : S262144.Idx → EReal) = shapeCast S262144 (times m c) shapeCasts_S64x4096_S262144 := by
  show StableHlo.after hostOps0 (fun b => m (c, b)) (Proc.devRef .tc main_v0) = _
  after_results
  rfl

/-- Its third operand is the stacked table. -/
theorem table_eq (c : Dev nD) :
    (V m c main_v4 : S256x256.Idx → EReal) = stacked (ampSin m c) (ampCos m c) := by
  show StableHlo.after hostOps0 (fun b => m (c, b)) (Proc.devRef .tc main_v4) = _
  after_results
  rfl

/-- Read at an index. -/
theorem flatTimes_apply (c : Dev nD) (i : S262144.Idx) (b : Fin 64) (l : Fin 4096) (h : (i 0).val = 4096 * b.val + l.val) :
    (V m c main_v0 : S262144.Idx → EReal) i = times m c (ix2 b l) := by
  rw [flatTimes_eq]
  exact flatten_apply (times m c) i b l h

theorem table_upper (c : Dev nD) (k : Fin 128) (cc : Fin 256) :
    (V m c main_v4 : S256x256.Idx → EReal) (ix2 (⟨k.val, Nat.lt_of_lt_of_le k.isLt (by decide)⟩ : Fin 256) cc) = ampSin m c (ix2 cc k) := by
  rw [table_eq]
  exact stacked_upper (ampSin m c) (ampCos m c) k cc

theorem table_lower (c : Dev nD) (k : Fin 128) (cc : Fin 256) :
    (V m c main_v4 : S256x256.Idx → EReal) (ix2 (⟨128 + k.val, Nat.add_lt_add_left k.isLt 128⟩ : Fin 256) cc) = ampCos m c (ix2 cc k) := by
  rw [table_eq]
  exact stacked_lower (ampSin m c) (ampCos m c) k cc

end Cert.FourierSeries.Entry

end
-- ==== Proof.Blocks.lean ====
/-
  From the blocks to the array.

  The grid has 32 points. Point `p` is handed rows `8192 · p … 8192 · p + 8191` of the flattened times, the whole
  frequency vector and the whole table, and writes back rows `8192 · p …` of the 262144 × 256 output. Row `r` of its
  block is flat row `8192 · p + r`, which is sample `(b, l)` with `4096 · b + l = 8192 · p + r`; so what the body
  stores there is the series at `(b, l, c)` — every written block is a block of ONE function of the arguments, the
  series read by flat row. The 32 blocks tile the output (row `i` lies in block `i / 8192`), so after the last point
  the output array is that function.
-/
import proofs.«166852_j72069551227165_2_alg».proof.Proof.Gen.KernelIdeal.Frame
import proofs.«166852_j72069551227165_2_alg».proof.Proof.Payload
import proofs.«166852_j72069551227165_2_alg».proof.Proof.Entry

noncomputable section

namespace Cert.FourierSeries.Region

open Cert.KernelIdeal Cert.KernelIdeal.Gen Idealize.ShloMosaic Idealize.ShloMosaic.TcCoe Idealize.SL.Sem
open Idealize.ShloMosaic.Pipeline (Dat)
open Idealize.ShloMosaic.ValueIdx
open Cert.FourierSeries Cert.FourierSeries.Entry

variable (m : (ℓ : Loc nD τ sig) → Buf (Elt Ideal) ℓ)

theorem zero1 : (![0] : Fin 1 → Nat) = fun _ => 0 := funext fun a => by fin_cases a; rfl
theorem zero2 : (![0, 0] : Fin 2 → Nat) = fun _ => 0 := funext fun a => by fin_cases a <;> rfl

/-- The region's output as one function of the argument arrays: the series read by flat row. -/
def flat (c : Dev nD) : S262144x256.Idx → EReal :=
  resultFlat (times m c) (freqs m c) (ampSin m c) (ampCos m c)

/-- Which block each window hands the body at point `p`: the times and the output move with the point along the
    rows; the frequencies and the table stay. -/
theorem block_indices : ∀ t : Fin cfg0.N,
    win0_0.index t (0 : Fin 1) = t.val ∧ win0_1.index t (0 : Fin 1) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := Nat.lt_of_lt_of_eq t.isLt N_0

/-! ## The input blocks, read where they come from -/

/-- Row `r` of the times block at point `p` is flat row `8192 · p + r`. -/
theorem times_block (c : Dev nD) (t : Fin cfg0.N) (r : Fin 8192) (i : S262144.Idx) (hi : (i 0).val = t.val * 8192 + r.val) :
    (iblk m c 0 t : Vec Ideal S8192 .f32) (ix1 r) = (V m c main_v0 : S262144.Idx → EReal) i := by
  obtain ⟨e0, -⟩ := block_indices t
  have h : ((cfg0.win 0).blk t).view.emb (ix1 r) = i := by
    funext a; apply Fin.ext
    match a with
    | ⟨0, _⟩ => show win0_0.index t (0 : Fin 1) * 8192 + 1 * r.val = (i 0).val; rw [e0, hi]; omega
  show V m c main_v0 (((cfg0.win 0).blk t).view.emb (ix1 r)) = V m c main_v0 i
  rw [h]

/-- The frequency block is the frequency vector. -/
theorem freqs_block (c : Dev nD) (t : Fin cfg0.N) (k : Fin 128) :
    (iblk m c 1 t : Vec Ideal S128 .f32) (ix1 k) = (V m c main_arg1 : S128.Idx → EReal) (ix1 k) := by
  obtain ⟨-, e1, -⟩ := block_indices t
  have h : ((cfg0.win 1).blk t).view.emb (ix1 k) = ix1 k := by
    funext a; apply Fin.ext
    match a with
    | ⟨0, _⟩ => show win0_1.index t (0 : Fin 1) * 128 + 1 * k.val = k.val; rw [e1]; omega
  show V m c main_arg1 (((cfg0.win 1).blk t).view.emb (ix1 k)) = V m c main_arg1 (ix1 k)
  rw [h]

/-- The table block is the table. -/
theorem table_block (c : Dev nD) (t : Fin cfg0.N) (k : Fin 256) (cc : Fin 256) :
    (iblk m c 2 t : Vec Ideal S256x256 .bf16) (ix2 k cc) = (V m c main_v4 : S256x256.Idx → EReal) (ix2 k cc) := by
  obtain ⟨-, -, e2, e3, -⟩ := block_indices t
  have h : ((cfg0.win 2).blk t).view.emb (ix2 k cc) = ix2 k cc := by
    funext a; apply Fin.ext
    match a with
    | ⟨0, _⟩ => show win0_2.index t (0 : Fin 2) * 256 + 1 * k.val = k.val; rw [e2]; omega
    | ⟨1, _⟩ => show win0_2.index t (1 : Fin 2) * 256 + 1 * cc.val = cc.val; rw [e3]; omega
  show V m c main_v4 (((cfg0.win 2).blk t).view.emb (ix2 k cc)) = V m c main_v4 (ix2 k cc)
  rw [h]

/-! ## What a point writes back -/

/-- Point `p` writes back block `p` of `flat`. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero zero2]
  simp only [View.ld_unit_zero (S := S8192) zero1, View.ld_unit_zero (S := S128) zero1, View.ld_unit_zero (S := S256x256) zero2]
  obtain ⟨-, -, -, -, e4, e5⟩ := block_indices t
  have ht := point_lt t
  funext j
  obtain ⟨r, cc, rfl⟩ : ∃ (r : Fin 8192) (cc : Fin 256), j = ix2 r cc := ⟨j 0, j 1, eq_ix2 j⟩
  have hr := r.isLt
  have hrow : t.val * 8192 + r.val < 262144 := by omega
  obtain ⟨b, hb⟩ : ∃ b : Fin 64, b.val = (t.val * 8192 + r.val) / 4096 := ⟨⟨_, row_div_lt hrow⟩, rfl⟩
  obtain ⟨l, hl⟩ : ∃ l : Fin 4096, l.val = (t.val * 8192 + r.val) % 4096 := ⟨⟨_, row_mod_lt _⟩, rfl⟩
  show k0_pay1 (F := Ideal) (iblk m c 0 t) (iblk m c 1 t) (iblk m c 2 t) (ix2 r cc)
      = flat m c (((cfg0.win 3).blk t).view.emb (ix2 r cc))
  refine (Body.point_value (iblk m c 0 t) (iblk m c 1 t) (iblk m c 2 t) (times m c) (freqs m c) (ampSin m c) (ampCos m c)
      r cc b l ?_ ?_ ?_ ?_).trans
    (resultFlat_apply (times m c) (freqs m c) (ampSin m c) (ampCos m c) (((cfg0.win 3).blk t).view.emb (ix2 r cc)) b l cc ?_ ?_).symm
  · exact (times_block m c t r (ix1 ⟨t.val * 8192 + r.val, hrow⟩) rfl).trans
      (flatTimes_apply m c (ix1 ⟨t.val * 8192 + r.val, hrow⟩) b l (by show t.val * 8192 + r.val = 4096 * b.val + l.val; omega))
  · intro k
    exact (freqs_block m c t k).trans (congrFun (V_main_arg1 m c) (ix1 k))
  · intro k
    exact (table_block m c t _ cc).trans (table_upper m c k cc)
  · intro k
    exact (table_block m c t _ cc).trans (table_lower m c k cc)
  · show win0_3.index t (0 : Fin 2) * 8192 + 1 * r.val = 4096 * b.val + l.val
    rw [e4]; omega
  · show win0_3.index t (1 : Fin 2) * 256 + 1 * cc.val = cc.val
    rw [e5]; omega

/-! ## The blocks tile the output -/

/-- An output index is in point `p`'s block iff each coordinate is in the block's range on its axis. -/
theorem mem_block (t : Fin cfg0.N) (i : S262144x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v5).slice (win0_3.rect t)).set ↔ _
  rw [View.set_slice_whole, Rect.mem_set_unit]
  exact Iff.rfl

/-- Row `i` of the output lies in the block of point `i / 8192`. -/
theorem covered (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  obtain ⟨t, ht⟩ : ∃ t : Fin cfg0.N, t.val = (i 0).val / 8192 :=
    ⟨⟨(i 0).val / 8192, Nat.lt_of_lt_of_eq (by omega : (i 0).val / 8192 < 32) N_0.symm⟩, rfl⟩
  obtain ⟨-, -, -, -, e4, e5⟩ := block_indices t
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    rw [e4]; omega
  | ⟨1, _⟩ =>
    show win0_3.index t (1 : Fin 2) * 256 ≤ (i 1).val ∧ (i 1).val < win0_3.index t (1 : Fin 2) * 256 + 256
    rw [e5]; omega

/-- After the last point the output array is `flat`. -/
theorem final (c : Dev nD) : (dats m 0 c).arrAt 3 cfg0.N = flat m c :=
  (dats m 0 c).arrAt_eq_of_cover 3 (flat m c) (fun t _ => flushed_eq m c t) covered

end Cert.FourierSeries.Region

end
-- ==== Proof.KernelRun.lean ====
/-
  The kernel program's run, read.

  After the region the program only views the 262144 × 256 output as 64 × 4096 × 256: entry `(b, l, c)` is row
  `4096 · b + l`, column `c`, of the region's output — the series at `(b, l, c)`. So every execution ends with the
  result array at the series of the four argument arrays, and with those arrays as launched.
-/
import proofs.«166852_j72069551227165_2_alg».proof.Proof.Gen.KernelIdeal.Frame
import proofs.«166852_j72069551227165_2_alg».proof.Proof.Blocks
import Idealize.ShloMosaic.Lib.StableHlo.Run

noncomputable section

namespace Cert.FourierSeries.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.FourierSeries Cert.FourierSeries.Entry Cert.FourierSeries.Region

variable (m : (ℓ : Loc nD τ sig) → Buf (Elt Ideal) ℓ) (ρ : Dev nD → PrngReg)

/-- The flat output viewed with the sample axes apart reads `(b, l, c)` at row `4096 · b + l`, column `c`. -/
theorem unflatten_apply (g : FVec Ideal S262144x256 .f32) (b : Fin 64) (l : Fin 4096) (c : Fin 256)
    (i : S262144x256.Idx) (hr : (i 0).val = 4096 * b.val + l.val) (hc : (i 1).val = c.val) :
    shapeCast S64x4096x256 g shapeCasts_S262144x256_S64x4096x256 (ix3 b l c) = g i :=
  shapeCast_apply g shapeCasts_S262144x256_S64x4096x256 (ix3 b l c) i (by
    rw [Shape.rowMajor_val_two, Shape.rowMajor_val_three]
    show (i 0).val * 256 + (i 1).val = (b.val * 4096 + l.val) * 256 + c.val
    rw [hr, hc]; omega)

/-- What the program leaves in its result array: the series of the argument arrays. -/
theorem tail_eq (c : Dev nD) :
    (Pipeline.afterTail₀ cfgs (dats m) 0 (V0 m) [hostOps1] c main_v6 : S64x4096x256.Idx → EReal)
      = result (times m c) (freqs m c) (ampSin m c) (ampCos m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = flat m c :=
    (Pipeline.withArrays_arr spec0 launch0.win.arr_inj c _ _ 3).trans (final m c)
  rw [hw]
  funext i
  obtain ⟨b, l, cc, rfl⟩ : ∃ (b : Fin 64) (l : Fin 4096) (cc : Fin 256), i = ix3 b l cc := ⟨i 0, i 1, i 2, eq_ix3 i⟩
  have hb := b.isLt
  have hl := l.isLt
  show shapeCast S64x4096x256 (flat m c) shapeCasts_S262144x256_S64x4096x256 (ix3 b l cc) = series _ _ _ _ b l cc
  refine (unflatten_apply (flat m c) b l cc (ix2 ⟨4096 * b.val + l.val, by omega⟩ cc) rfl rfl).trans ?_
  exact resultFlat_apply _ _ _ _ _ b l cc rfl rfl

/-- Every execution of the kernel program ends with its result at the series and its arguments as launched. -/
theorem run : θ_run defs (onTc (τ := τ) (main (F := Ideal))) ⟨m, fun _ => 0, ρ⟩ fun r => ∀ c : Dev nD,
      r.2.mem ((c.tc : Thread nD τ).loc main_v6) = result (times m c) (freqs m c) (ampSin m c) (ampCos m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.FourierSeries.Kernel

end
-- ==== Proof.lean ====
/-
  The kernel and its reference compute one function on the extended reals: the truncated Fourier series

      out[b, l, c] = Σ_k sin((ω · t[b, l]) · f[k]) · aS[c, k]  +  Σ_k cos((ω · t[b, l]) · f[k]) · aC[c, k]

  over 128 frequencies, `ω` the f32 word nearest 2π (the same word in both programs, multiplied in the same order).

  The kernel flattens the sample axes, cuts the 262144 rows into 32 blocks, and on each block contracts the sines laid
  beside the cosines (one inner axis of length 256) with `aS` transposed stacked on `aC` transposed; the reference
  contracts the sines with `aS` and the cosines with `aC` separately (two inner axes of length 128) and adds. The only
  law between the two is that a finite sum is the sum of its two halves, which holds on the extended reals without
  any finiteness: the precondition is never opened. Sines and cosines are the same function in the kernel and on the
  host at the ideal values, and rounding to a narrower float format is the identity there.

  Modules: Spec (the series, its flat reading, the halves law) · RefSeries (the reference's last stage is the series) ·
  Payload (what the body stores, at an index) · Entry (what the region finds in its operands) · Blocks (each written
  block is a block of the series read by flat row; the blocks tile the output) · KernelRun (the view back to three
  axes, and the kernel program's run). The three frames are the generated ones; the idealization rewrote nothing.
-/
import proofs.«166852_j72069551227165_2_alg».proof.Defs
import proofs.«166852_j72069551227165_2_alg».proof.Proof.Gen.Kernel
import proofs.«166852_j72069551227165_2_alg».proof.Proof.Gen.Kernel.Skeleton
import proofs.«166852_j72069551227165_2_alg».proof.Proof.Gen.Kernel.Launch
import proofs.«166852_j72069551227165_2_alg».proof.Proof.Gen.Kernel.Points
import proofs.«166852_j72069551227165_2_alg».proof.Proof.Gen.Kernel.Frame
import proofs.«166852_j72069551227165_2_alg».proof.Proof.Gen.KernelIdeal
import proofs.«166852_j72069551227165_2_alg».proof.Proof.Gen.KernelIdeal.Skeleton
import proofs.«166852_j72069551227165_2_alg».proof.Proof.Gen.KernelIdeal.Launch
import proofs.«166852_j72069551227165_2_alg».proof.Proof.Gen.KernelIdeal.Points
import proofs.«166852_j72069551227165_2_alg».proof.Proof.Gen.KernelIdeal.Frame
import proofs.«166852_j72069551227165_2_alg».proof.Proof.Gen.ReferenceIdeal
import proofs.«166852_j72069551227165_2_alg».proof.Proof.Gen.ReferenceIdeal.Run
import proofs.«166852_j72069551227165_2_alg».proof.Proof.Gen.ReferenceIdeal.Read
import proofs.«166852_j72069551227165_2_alg».proof.Proof.Gen.Pre_finite_inputs
import proofs.«166852_j72069551227165_2_alg».proof.Proof.RefSeries
import proofs.«166852_j72069551227165_2_alg».proof.Proof.KernelRun
import Idealize.ShloMosaic.Adequacy
import Idealize.ShloMosaic.Init

noncomputable section

namespace Cert.Proof

open Idealize.ShloMosaic Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does its reading at the ideal values. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the series of the (agreeing) argument arrays in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.FourierSeries.result (Cert.FourierSeries.Entry.times m c) (Cert.FourierSeries.Entry.freqs m c)
      (Cert.FourierSeries.Entry.ampSin m c) (Cert.FourierSeries.Entry.ampCos m c),
    Cert.FourierSeries.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.FourierSeries.Reference.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
